-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel

variable [Facts]

def fn {F : FTy → Type} [FloatOps F] (main_arg0 : FVec F S131072x256 .f32) (main_arg1 : FVec F S131072x256 .f32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S131072x256 .f32 := Host.absf main_arg1
  let main_cst_0 : FVec F S_ .f32 := constant S_ .f32 0x7F800000#32
  let main_v5 : FVec F S131072x256 .f32 := broadcastInDim S131072x256 ![] bcast_S_S131072x256 main_cst_0
  let main_v6 : IVec S131072x256 1 := cmpf .olt main_v4 main_v5
  let main_c_1 : IVec S_ 1 := constantI S_ 1 1#1
  let main_v7 : IVec S_ 1 := (fun x v => Host.reduce IntOp.andi x v reducesTo_S131072x256_S_d0_1 h_S_) main_v6 main_c_1
  let main_v8 : IVec S_ 1 := andi main_v3 main_v7
  main_v8
-- ==== Kernel.lean ====
abbrev S131072x256 : Shape := ⟨2, ![131072, 256]⟩
abbrev S1x1 : Shape := ⟨2, ![1, 1]⟩
abbrev S4096x256 : Shape := ⟨2, ![4096, 256]⟩
abbrev S4096 : Shape := ⟨1, ![4096]⟩
abbrev S4096x1 : Shape := ⟨2, ![4096, 1]⟩
abbrev S1x4096x1 : Shape := ⟨3, ![1, 4096, 1]⟩
abbrev S1 : Shape := ⟨1, ![1]⟩
abbrev S1x1x1 : Shape := ⟨3, ![1, 1, 1]⟩
abbrev S_ : Shape := ⟨0, ![]⟩

abbrev nBuf : Space → Nat
  | .hbm => 4
  | .vmem => 6
  | .smem => 0
  | _ => 0

abbrev bufTy : (tb : Table) → Fin (tcTables nBuf tb) → BufTy
  | .hbm, ⟨0, _⟩ => ⟨S131072x256, .f32⟩
  | .hbm, ⟨1, _⟩ => ⟨S131072x256, .f32⟩
  | .hbm, ⟨2, _⟩ => ⟨S1x1, .f32⟩
  | .hbm, ⟨3, _⟩ => ⟨S_, .f32⟩
  | .local _ .vmem, ⟨0, _⟩ => ⟨S4096x256, .f32⟩
  | .local _ .vmem, ⟨1, _⟩ => ⟨S4096x256, .f32⟩
  | .local _ .vmem, ⟨2, _⟩ => ⟨S4096x256, .f32⟩
  | .local _ .vmem, ⟨3, _⟩ => ⟨S4096x256, .f32⟩
  | .local _ .vmem, ⟨4, _⟩ => ⟨S1x1, .f32⟩
  | .local _ .vmem, ⟨5, _⟩ => ⟨S1x1, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v38 : BitVec 1 := Scalar.cmpi .eq arg0 c31_i32
  let v39 : BitVec 32 := Scalar.extui v38
  let c0_i32_13 : BitVec 32 := 0#32
  let v40 : BitVec 1 := Scalar.cmpi .ne v39 c0_i32_13
  v40

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S4096x256_S4096x256_0_0 : ∀ a, (![0, 0] : Fin 2 → Nat) a + S4096x256.size a ≤ S4096x256.size a
  h_S4096x256 : 0 < S4096x256.numel
  reduces_S4096x256_S4096 : S4096x256.Reduces [1] S4096
  shapeCasts_S4096_S4096x1 : S4096.ShapeCasts S4096x1
  broadcasts_S4096x1_S4096x256 : S4096x1.Broadcasts S4096x256
  shapeCasts_S4096x1_S1x4096x1 : S4096x1.ShapeCasts S1x4096x1
  reduces_S1x4096x1_S1 : S1x4096x1.Reduces [1, 2] S1
  shapeCasts_S1_S1x1x1 : S1.ShapeCasts S1x1x1
  inpos_S1x1x1_p0_0_0 : ∀ a, (![0, 0, 0] : Fin 3 → Nat) a < S1x1x1.size a
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S131072x256.size a
  hwx0_0 : ∀ i : grid0.Coords, EltTy.bits .f32 = 32 ∨ (Rect.block (s := S131072x256) S4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S131072x256.size a
  hwx0_1 : ∀ i : grid0.Coords, EltTy.bits .f32 = 32 ∨ (Rect.block (s := S131072x256) S4096x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S131072x256 : Shape := ⟨2, ![131072, 256]⟩
abbrev S_ : Shape := ⟨0, ![]⟩
abbrev S131072 : Shape := ⟨1, ![131072]⟩
abbrev S131072x1 : Shape := ⟨2, ![131072, 1]⟩

abbrev nBuf : Space → Nat
  | .hbm => 43
  | .vmem => 0
  | .smem => 0
  | _ => 0

abbrev bufTy : (tb : Table) → Fin (tcTables nBuf tb) → BufTy
  | .hbm, ⟨0, _⟩ => ⟨S131072x256, .f32⟩
  | .hbm, ⟨1, _⟩ => ⟨S131072x256, .f32⟩
  | .hbm, ⟨2, _⟩ => ⟨S_, .f32⟩
  | .hbm, ⟨3, _⟩ => ⟨S131072, .f32⟩
  | .hbm, ⟨4, _⟩ => ⟨S_, .f32⟩
  | .hbm, ⟨5, _⟩ => ⟨S131072, .f32⟩
  | .hbm, ⟨6, _⟩ => ⟨S131072, .f32⟩
  | .hbm, ⟨7, _⟩ => ⟨S131072x1, .f32⟩
  | .hbm, ⟨8, _⟩ => ⟨S131072x256, .f32⟩
  | .hbm, ⟨9, _⟩ => ⟨S131072x256, .f32⟩
  | .hbm, ⟨10, _⟩ => ⟨S131072x256, .f32⟩
  | .hbm, ⟨11, _⟩ => ⟨S_, .f32⟩
  | .hbm, ⟨12, _⟩ => ⟨S131072, .f32⟩
  | .hbm, ⟨13, _⟩ => ⟨S131072x1, .f32⟩
  | .hbm, ⟨14, _⟩ => ⟨S131072x1, .f32⟩
  | .hbm, ⟨15, _⟩ => ⟨S131072x256, .f32⟩
  | .hbm, ⟨16, _⟩ => ⟨S131072x256, .f32⟩
  | .hbm, ⟨17, _⟩ => ⟨S131072x256, .f32⟩
  | .hbm, ⟨18, _⟩ => ⟨S_, .f32⟩
  | .hbm, ⟨19, _⟩ => ⟨S131072, .f32⟩
  | .hbm, ⟨20, _⟩ => ⟨S_, .f32⟩
  | .hbm, ⟨21, _⟩ => ⟨S131072, .f32⟩
  | .hbm, ⟨22, _⟩ => ⟨S131072, .f32⟩
  | .hbm, ⟨23, _⟩ => ⟨S131072x1, .f32⟩
  | .hbm, ⟨24, _⟩ => ⟨S131072x256, .f32⟩
  | .hbm, ⟨25, _⟩ => ⟨S131072x256, .f32⟩
  | .hbm, ⟨26, _⟩ => ⟨S131072x256, .f32⟩
  | .hbm, ⟨27, _⟩ => ⟨S_, .f32⟩
  | .hbm, ⟨28, _⟩ => ⟨S131072, .f32⟩
  | .hbm, ⟨29, _⟩ => ⟨S131072x1, .f32⟩
  | .hbm, ⟨30, _⟩ => ⟨S131072x1, .f32⟩
  | .hbm, ⟨31, _⟩ => ⟨S131072x256, .f32⟩
  | .hbm, ⟨32, _⟩ => ⟨S131072x256, .f32⟩
  | .hbm, ⟨33, _⟩ => ⟨S131072x256, .f32⟩
  | .hbm, ⟨34, _⟩ => ⟨S131072x256, .f32⟩
  | .hbm, ⟨35, _⟩ => ⟨S_, .f32⟩
  | .hbm, ⟨36, _⟩ => ⟨S131072, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_v1 : Ref sig .tc := ⟨.hbm, 17, rfl⟩
abbrev main_call1_cst : Ref sig .tc := ⟨.hbm, 18, rfl⟩
abbrev main_call1_v0 : Ref sig .tc := ⟨.hbm, 19, rfl⟩
abbrev main_call1_cst_0 : Ref sig .tc := ⟨.hbm, 20, rfl⟩
abbrev main_call1_v1 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_call1_v5 : Ref sig .tc := ⟨.hbm, 25, rfl⟩
abbrev main_call1_v6 : Ref sig .tc := ⟨.hbm, 26, rfl⟩
abbrev main_call1_cst_1 : Ref sig .tc := ⟨.hbm, 27, rfl⟩
abbrev main_call1_v7 : Ref sig .tc := ⟨.hbm, 28, rfl⟩
abbrev main_call1_v8 : Ref sig .tc := ⟨.hbm, 29, rfl⟩
abbrev main_call1_v9 : Ref sig .tc := ⟨.hbm, 30, rfl⟩
abbrev main_call1_v10 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_cst : Ref sig .tc := ⟨.hbm, 35, rfl⟩
abbrev main_v5 : Ref sig .tc := ⟨.hbm, 36, rfl⟩
abbrev main_cst_0 : Ref sig .tc := ⟨.hbm, 37, rfl⟩
abbrev main_v6 : Ref sig .tc := ⟨.hbm, 38, rfl⟩
abbrev main_cst_1 : Ref sig .tc := ⟨.hbm, 39, rfl⟩
abbrev main_v7 : Ref sig .tc := ⟨.hbm, 40, rfl⟩
abbrev main_cst_2 : Ref sig .tc := ⟨.hbm, 41, rfl⟩
abbrev main_v8 : Ref sig .tc := ⟨.hbm, 42, rfl⟩

abbrev nD : Nat := 1
abbrev τ : Topo := Topo.v7x

variable {F : FTy → Type} [FloatOps F]

class Facts₀ : Prop where
  reducesTo_S131072x256_S131072_d1 : S131072x256.ReducesTo [1] S131072
  h_S_ : 0 < S_.numel
  bcast_S_S131072 : S_.BroadcastsInDim S131072 (![] : Fin 0 → Fin S131072.rank)
  bcast_S131072_S131072x1_0 : S131072.BroadcastsInDim S131072x1 (![0] : Fin 1 → Fin S131072x1.rank)
  bcast_S131072x1_S131072x256_0_1 : S131072x1.BroadcastsInDim S131072x256 (![0, 1] : Fin 2 → Fin S131072x256.rank)
  reducesTo_S131072_S_d0 : S131072.ReducesTo [0] S_

variable [Facts₀]

class Facts : Prop extends Facts₀ where

variable [Facts]
-- ==== Proof.RowLaw.lean ====
/-
  The law that joins the two programs, on one row.

  For a row pair `f, g` of finite reals write `M f = max_k f k`, `L f = log ∑_k exp (f k - M f)`. The reference
  forms, column by column, `-((f c - M f) - L f) + -((g c - M g) - L g)` and takes the minimum over the columns;
  the kernel forms `((M f + L f) + (M g + L g)) - max_c (f c + g c)`. Over the reals the column term is
  `A - (f c + g c)` with `A = (M f + L f) + (M g + L g)` the same for every column, and the minimum of `A - h c`
  is `A` minus the maximum of `h c`. Finiteness is what makes the first step an identity: on the extended reals
  `-((a - M) - L)` is not `(M + L) - a` at the infinities.
-/
import Idealize.ShloMosaic.PureOps.Ideal

noncomputable section

namespace Cert.MinEntropy

open Idealize.ShloMosaic

variable {ι : Type} [Fintype ι]

/-- The maximum of a row, folded from `-∞`. -/
def rowMax (f : ι → EReal) : EReal := (Finset.univ : Finset ι).fold max ⊥ f

/-- The minimum of a row, folded from `+∞`. -/
def rowMin (f : ι → EReal) : EReal := (Finset.univ : Finset ι).fold min ⊤ f

/-- The log-sum-exp of a row, shifted by the row's maximum. -/
def lse (f : ι → EReal) : EReal := rowMax f + Ideal.log (∑ k, Ideal.exp (f k - rowMax f))

/-- A row pair's loss as the kernel forms it: the two log-sum-exps less the maximum of the column sums. -/
def rowLoss (f g : ι → EReal) : EReal := (lse f + lse g) - rowMax (fun k => f k + g k)

/-- Minus the log-softmax of a row at a column, in the reference's spelling: the maximum joined with `-∞` once
    more, the sum started from `0`. -/
def negLogSoftmax (f : ι → EReal) (c : ι) : EReal :=
  -((f c - max ⊥ (rowMax f)) - Ideal.log (0 + ∑ k, Ideal.exp (f k - max ⊥ (rowMax f))))

/-- A row pair's loss as the reference forms it: the minimum over the columns of the two cross-entropies' sum. -/
def rowLossRef (f g : ι → EReal) : EReal := rowMin (fun c => negLogSoftmax f c + negLogSoftmax g c)

/-- A finite sum of reals, taken in the extended reals, is the real sum. -/
theorem coe_sum (s : Finset ι) (e : ι → ℝ) : (∑ k ∈ s, (e k : EReal)) = ((∑ k ∈ s, e k : ℝ) : EReal) := by
  classical
  induction s using Finset.induction_on with
  | empty => simp
  | insert a s ha ih => rw [Finset.sum_insert ha, Finset.sum_insert ha, ih, EReal.coe_add]

/-- The maximum of a nonempty row of reals is a real. -/
theorem rowMax_coe [Nonempty ι] (f : ι → ℝ) : ∃ M : ℝ, rowMax (fun k => (f k : EReal)) = (M : EReal) := by
  have h1 : rowMax (fun k => (f k : EReal)) ≠ ⊤ := by
    refine ne_of_lt ?_
    show Finset.fold max ⊥ (fun k => (f k : EReal)) Finset.univ < ⊤
    exact (Finset.fold_max_lt _).mpr ⟨bot_lt_top, fun k _ => EReal.coe_lt_top _⟩
  have h2 : rowMax (fun k => (f k : EReal)) ≠ ⊥ := by
    obtain ⟨k⟩ := ‹Nonempty ι›
    refine ne_of_gt ?_
    show ⊥ < Finset.fold max ⊥ (fun k => (f k : EReal)) Finset.univ
    exact (Finset.lt_fold_max _).mpr (Or.inr ⟨k, Finset.mem_univ _, EReal.bot_lt_coe _⟩)
  exact ⟨_, (EReal.coe_toReal h1 h2).symm⟩

/-- The log of the sum of the shifted exponentials of a nonempty row of reals is a real: the sum is positive. -/
theorem log_sum_exp_coe [Nonempty ι] (f : ι → ℝ) (M : ℝ) :
    Ideal.log (∑ k, Ideal.exp ((f k : EReal) - (M : EReal)))
      = ((Real.log (∑ k, Real.exp (f k - M)) : ℝ) : EReal) := by
  have hS : 0 < ∑ k, Real.exp (f k - M) := Finset.sum_pos (fun k _ => Real.exp_pos _) Finset.univ_nonempty
  simp only [← EReal.coe_sub, Ideal.exp_coe, coe_sum]
  rw [Ideal.log_coe, if_neg (not_le.mpr hS)]

/-- Subtracting from a real constant turns a maximum into a minimum, over any finite set (the empty one too:
    `A - (-∞) = +∞`). -/
theorem fold_min_sub (A : ℝ) (h : ι → EReal) (s : Finset ι) :
    s.fold min ⊤ (fun c => (A : EReal) - h c) = (A : EReal) - s.fold max ⊥ h := by
  classical
  induction s using Finset.induction_on with
  | empty => rw [Finset.fold_empty, Finset.fold_empty, EReal.coe_sub_bot]
  | insert a s ha ih =>
    rw [Finset.fold_insert ha, Finset.fold_insert ha, ih]
    rcases le_total (h a) (s.fold max ⊥ h) with hle | hle
    · rw [max_eq_right hle, min_eq_right (EReal.sub_le_sub le_rfl hle)]
    · rw [max_eq_left hle, min_eq_left (EReal.sub_le_sub le_rfl hle)]

/-- THE ROW LAW: on a nonempty row pair of finite values the reference's minimum of summed cross-entropies is the
    kernel's two log-sum-exps less the maximum of the column sums. -/
theorem rowLossRef_eq_rowLoss [Nonempty ι] (f g : ι → EReal) (hf : ∀ k, ∃ r : ℝ, f k = (r : EReal))
    (hg : ∀ k, ∃ r : ℝ, g k = (r : EReal)) : rowLossRef f g = rowLoss f g := by
  choose f' hf' using hf
  choose g' hg' using hg
  obtain rfl : f = fun k => (f' k : EReal) := funext hf'
  obtain rfl : g = fun k => (g' k : EReal) := funext hg'
  obtain ⟨Mf, hMf⟩ := rowMax_coe f'
  obtain ⟨Mg, hMg⟩ := rowMax_coe g'
  obtain ⟨Mh, hMh⟩ := rowMax_coe (fun k => f' k + g' k)
  have hb : ∀ x : EReal, max ⊥ x = x := fun x => max_eq_right bot_le
  have hsum : (fun k => (f' k : EReal) + (g' k : EReal)) = fun k => ((f' k + g' k : ℝ) : EReal) :=
    funext fun k => (EReal.coe_add _ _).symm
  unfold rowLossRef rowLoss negLogSoftmax lse
  rw [hsum, hMf, hMg, hMh]
  simp only [hb, zero_add, log_sum_exp_coe]
  have key : ∀ c, -(((f' c : EReal) - (Mf : EReal)) - ((Real.log (∑ k, Real.exp (f' k - Mf)) : ℝ) : EReal))
        + -(((g' c : EReal) - (Mg : EReal)) - ((Real.log (∑ k, Real.exp (g' k - Mg)) : ℝ) : EReal))
      = (((Mf + Real.log (∑ k, Real.exp (f' k - Mf))) + (Mg + Real.log (∑ k, Real.exp (g' k - Mg))) : ℝ) : EReal)
        - ((f' c + g' c : ℝ) : EReal) := by
    intro c
    simp only [← EReal.coe_sub, ← EReal.coe_add, ← EReal.coe_neg]
    congr 1
    ring
  simp only [key]
  unfold rowMin
  rw [fold_min_sub]
  show _ - rowMax (fun k => ((f' k + g' k : ℝ) : EReal)) = _
  rw [hMh]
  simp only [← EReal.coe_add]

end Cert.MinEntropy

end
-- ==== Proof.Spec.lean ====
/-
  What both programs compute, as one function of the two [131072, 256] arrays: half of the mean, over the
  131072 rows, of the row pair's loss (RowLaw.lean) — written the way the kernel accumulates it, 32 blocks of
  4096 rows, `(half · total) / rows`; and the two re-arrangements that meet the reference's spelling: the sum
  over all rows is the sum over the blocks of the sums over a block's rows, and the factor one half moves across
  the division by the (nonzero, finite) row count.
-/
import proofs.«121945_j71004399337949_1_alg».proof.Proof.RowLaw
import Idealize.ShloMosaic.Lib.ValueIdx

noncomputable section

namespace Cert.MinEntropy

open Idealize.ShloMosaic Idealize.ShloMosaic.ValueIdx

/-- Row `b` of a [131072, 256] array. -/
def rowOf (X : (⟨2, ![131072, 256]⟩ : Shape).Idx → EReal) (b : Fin 131072) : Fin 256 → EReal := fun k => X (ix2 b k)

/-- Row `r` of row block `t` is row `4096 t + r` of the array. -/
def blockRow (t : Fin 32) (r : Fin 4096) : Fin 131072 :=
  ⟨4096 * t.val + r.val, by have := t.isLt; have := r.isLt; omega⟩

/-- The loss summed over the 4096 rows of block `t`. -/
def blockLoss (X Y : (⟨2, ![131072, 256]⟩ : Shape).Idx → EReal) (t : Fin 32) : EReal :=
  ∑ r : Fin 4096, rowLoss (rowOf X (blockRow t r)) (rowOf Y (blockRow t r))

/-- The result: the 32 block losses summed, times `half`, divided by `rows`. -/
def meanLoss (half rows : EReal) (X Y : (⟨2, ![131072, 256]⟩ : Shape).Idx → EReal) : EReal :=
  Ideal.div (half * ∑ t : Fin 32, blockLoss X Y t) rows

/-- A rank-1 index is its one coordinate. -/
def idxEquiv1 {n : Nat} : (⟨1, ![n]⟩ : Shape).Idx ≃ Fin n where
  toFun j := j 0
  invFun a := ix1 a
  left_inv j := (eq_ix1 j).symm
  right_inv _ := rfl

/-- A sum over rank-1 indices is the sum over the coordinate. -/
theorem sum_idx1 {n : Nat} (f : (⟨1, ![n]⟩ : Shape).Idx → EReal) : ∑ j, f j = ∑ a : Fin n, f (ix1 a) :=
  (Equiv.sum_comp idxEquiv1.symm f).symm

/-- The 131072 rows are the 32 blocks of 4096 rows: a sum over the rows is the sum over the blocks of the sums over
    each block's rows (row `4096 t + r` is row `r` of block `t`). -/
theorem sum_rows_eq_sum_blocks (G : Fin 131072 → EReal) :
    ∑ b : Fin 131072, G b = ∑ t : Fin 32, ∑ r : Fin 4096, G (blockRow t r) := by
  rw [← Equiv.sum_comp (finProdFinEquiv : Fin 32 × Fin 4096 ≃ Fin (32 * 4096)) (G : Fin (32 * 4096) → EReal),
    Fintype.sum_prod_type]
  refine Finset.sum_congr rfl fun t _ => Finset.sum_congr rfl fun r _ => congrArg G (Fin.ext ?_)
  rw [finProdFinEquiv_apply_val]
  show r.val + 4096 * t.val = 4096 * t.val + r.val
  omega

/-- Half of the quotient by the row count is the quotient of the half: the row count is a nonzero real, so the
    quotient is a product with its reciprocal, and products associate on the extended reals. -/
theorem half_div_rows (half T : EReal) :
    half * Ideal.div T ((131072 : ℝ) : EReal) = Ideal.div (half * T) ((131072 : ℝ) : EReal) := by
  rw [Ideal.div_coe (by norm_num : (131072 : ℝ) ≠ 0), Ideal.div_coe (by norm_num : (131072 : ℝ) ≠ 0), mul_assoc]

end Cert.MinEntropy

end
-- ==== Proof.Consts.lean ====
/-
  The float constants the two programs spell, as the extended reals their bit patterns denote: the two
  infinities that start a maximum and a minimum, the zero that starts a sum, and the row count 131072 = 2^17
  that the mean divides by. (The factor one half is the same word on both sides and is never evaluated.)
  They are unfolded here, once, so that no other module of the proof opens the pattern decoder.
-/
import Idealize.ShloMosaic.PureOps.Ideal

noncomputable section

namespace Cert.MinEntropy.Consts

open Idealize.ShloMosaic

/-- The pattern of `-∞` denotes the bottom of the extended reals. -/
theorem ofBits_neg_inf : Ideal.ofBits .f32 0xFF800000#32 = ⊥ := by
  simp [Ideal.ofBits, Ideal.ieee]

/-- The pattern of `+∞` denotes the top of the extended reals. -/
theorem ofBits_pos_inf : Ideal.ofBits .f32 0x7F800000#32 = ⊤ := by
  simp [Ideal.ofBits, Ideal.ieee]

/-- `+0.0` denotes `0`. -/
theorem ofBits_zero : Ideal.ofBits .f32 0x00000000#32 = 0 := by
  simp [Ideal.ofBits, Ideal.ieee]

/-- `131072.0` denotes the real `131072`. -/
theorem ofBits_rows : Ideal.ofBits .f32 0x48000000#32 = ((131072 : ℝ) : EReal) := by
  simp [Ideal.ofBits, Ideal.ieee, -EReal.coe_mul]; norm_num

end Cert.MinEntropy.Consts

end
-- ==== Proof.RefValue.lean ====
/-
  The reference, read at its one result index at the extended reals.

  Each `log_softmax` call takes the row maximum (joined with `-∞` once more), shifts the row by it, sums the
  exponentials from the zero, takes the log and subtracts it; the results are negated and added; the minimum over
  each row's columns is taken from `+∞`; the 131072 minima are summed from the zero, divided by the row count and
  halved. Row by row that is RowLaw.lean's `rowLossRef`, which on finite rows is the kernel's `rowLoss`; the sum
  over all rows is the sum over the 32 blocks of 4096 rows, and the half moves across the division (Spec.lean).
-/
import proofs.«121945_j71004399337949_1_alg».proof.Proof.RefReadP
import proofs.«121945_j71004399337949_1_alg».proof.Proof.Spec
import proofs.«121945_j71004399337949_1_alg».proof.Proof.Consts
import Idealize.ShloMosaic.PureOps.Ideal.Laws
import Idealize.ShloMosaic.Lib.ValueIdx

noncomputable section

namespace Cert.ReferenceIdeal.RefValue

open Idealize.ShloMosaic Idealize.ShloMosaic.ValueIdx Cert.ReferenceIdeal Cert.ReferenceIdeal.ReadP Cert.MinEntropy
open Cert.ReferenceIdeal.Facts₀

/-- A row maximum on the host: the fold of `max` from the initial value (here `-∞`) over the row's columns. -/
theorem reduce_max_row (x : S131072x256.Idx → EReal) (init : S_.Idx → EReal) (hinit : ∀ i, init i = ⊥) (b : Fin 131072) :
    Host.reduce (FloatOps.maximumf (F := Ideal) (φ := .f32)) x init reducesTo_S131072x256_S131072_d1 h_S_ (ix1 b)
      = rowMax (rowOf x b) := by
  refine (Host.reduce_eq_fold_single _ x init reducesTo_S131072x256_S131072_d1 (by decide) h_S_ (ix1 b)).trans ?_
  rw [hinit]
  unfold rowMax rowOf
  refine congrArg (fun g : Fin 256 → EReal => Finset.fold max ⊥ g Finset.univ) (funext fun k => congrArg x (funext fun a => Fin.ext ?_))
  match a with
  | ⟨0, _⟩ => rfl
  | ⟨1, _⟩ => rfl

/-- A row minimum on the host: the fold of `min` from the initial value (here `+∞`) over the row's columns. -/
theorem reduce_min_row (x : S131072x256.Idx → EReal) (init : S_.Idx → EReal) (hinit : ∀ i, init i = ⊤) (b : Fin 131072) :
    Host.reduce (FloatOps.minimumf (F := Ideal) (φ := .f32)) x init reducesTo_S131072x256_S131072_d1 h_S_ (ix1 b)
      = rowMin (fun k : Fin 256 => x (ix2 b k)) := by
  refine (Host.reduce_eq_fold_single _ x init reducesTo_S131072x256_S131072_d1 (by decide) h_S_ (ix1 b)).trans ?_
  rw [hinit]
  unfold rowMin
  refine congrArg (fun g : Fin 256 → EReal => Finset.fold min ⊤ g Finset.univ) (funext fun k => congrArg x (funext fun a => Fin.ext ?_))
  match a with
  | ⟨0, _⟩ => rfl
  | ⟨1, _⟩ => rfl

/-! ## The first `log_softmax` call, on the first argument -/

/-- The first call's shifted maximum: the row maximum joined with `-∞` once more. -/
theorem shift0 (x : S131072x256.Idx → EReal) (b : Fin 131072) (c : Fin 256) :
    val_main_call0_v4 (F := Ideal) x (ix2 b c) = max ⊥ (rowMax (rowOf x b)) := by
  have e : idx_main_call0_v3 (idx_main_call0_v4 (ix2 b c)) = ix1 b :=
    funext fun a => by match a with | ⟨0, _⟩ => rfl
  rw [val_main_call0_v4_apply, val_main_call0_v3_apply, e, val_main_call0_v2_apply, val_main_call0_v1_apply,
    val_main_call0_cst_0_apply]
  show max (Ideal.ofBits .f32 0xFF800000#32) (val_main_call0_v0 (F := Ideal) x (ix1 b)) = _
  rw [Consts.ofBits_neg_inf]
  refine congrArg (max ⊥) ?_
  unfold val_main_call0_v0
  exact reduce_max_row x _ (fun _ => Consts.ofBits_neg_inf) b

/-- The first call's shifted entry. -/
theorem shifted0 (x : S131072x256.Idx → EReal) (b : Fin 131072) (c : Fin 256) :
    val_main_call0_v5 (F := Ideal) x (ix2 b c) = x (ix2 b c) - max ⊥ (rowMax (rowOf x b)) := by
  rw [val_main_call0_v5_apply, shift0]
  rfl

/-- The first call's row sum of exponentials, started from the zero. -/
theorem expsum0 (x : S131072x256.Idx → EReal) (b : Fin 131072) :
    val_main_call0_v7 (F := Ideal) x (ix1 b) = 0 + ∑ k : Fin 256, Ideal.exp (x (ix2 b k) - max ⊥ (rowMax (rowOf x b))) := by
  rw [val_main_call0_v7_apply, val_main_call0_cst_1_apply]
  show Ideal.ofBits .f32 0x00000000#32 + _ = _
  rw [Consts.ofBits_zero]
  refine congrArg (0 + ·) (Finset.sum_congr rfl fun k _ => ?_)
  have e : idx_main_call0_v7 (ix1 b) k = ix2 b k :=
    funext fun a => by match a with | ⟨0, _⟩ => rfl | ⟨1, _⟩ => rfl
  rw [e, val_main_call0_v6_apply, shifted0]
  rfl

/-- Minus the first call's result is the row's negated log-softmax. -/
theorem negLogSoftmax0 (x : S131072x256.Idx → EReal) (b : Fin 131072) (c : Fin 256) :
    val_main_v1 (F := Ideal) x (ix2 b c) = negLogSoftmax (rowOf x b) c := by
  have e : idx_main_call0_v8 (idx_main_call0_v10 (ix2 b c)) = ix1 b :=
    funext fun a => by match a with | ⟨0, _⟩ => rfl
  rw [val_main_v1_apply, val_main_v0_apply, shifted0, val_main_call0_v10_apply, val_main_call0_v9_apply,
    val_main_call0_v8_apply, e, expsum0]
  rfl

/-! ## The second `log_softmax` call, on the second argument -/

/-- The second call's shifted maximum: the row maximum joined with `-∞` once more. -/
theorem shift1 (x : S131072x256.Idx → EReal) (b : Fin 131072) (c : Fin 256) :
    val_main_call1_v4 (F := Ideal) x (ix2 b c) = max ⊥ (rowMax (rowOf x b)) := by
  have e : idx_main_call1_v3 (idx_main_call1_v4 (ix2 b c)) = ix1 b :=
    funext fun a => by match a with | ⟨0, _⟩ => rfl
  rw [val_main_call1_v4_apply, val_main_call1_v3_apply, e, val_main_call1_v2_apply, val_main_call1_v1_apply,
    val_main_call1_cst_0_apply]
  show max (Ideal.ofBits .f32 0xFF800000#32) (val_main_call1_v0 (F := Ideal) x (ix1 b)) = _
  rw [Consts.ofBits_neg_inf]
  refine congrArg (max ⊥) ?_
  unfold val_main_call1_v0
  exact reduce_max_row x _ (fun _ => Consts.ofBits_neg_inf) b

/-- The second call's shifted entry. -/
theorem shifted1 (x : S131072x256.Idx → EReal) (b : Fin 131072) (c : Fin 256) :
    val_main_call1_v5 (F := Ideal) x (ix2 b c) = x (ix2 b c) - max ⊥ (rowMax (rowOf x b)) := by
  rw [val_main_call1_v5_apply, shift1]
  rfl

/-- The second call's row sum of exponentials, started from the zero. -/
theorem expsum1 (x : S131072x256.Idx → EReal) (b : Fin 131072) :
    val_main_call1_v7 (F := Ideal) x (ix1 b) = 0 + ∑ k : Fin 256, Ideal.exp (x (ix2 b k) - max ⊥ (rowMax (rowOf x b))) := by
  rw [val_main_call1_v7_apply, val_main_call1_cst_1_apply]
  show Ideal.ofBits .f32 0x00000000#32 + _ = _
  rw [Consts.ofBits_zero]
  refine congrArg (0 + ·) (Finset.sum_congr rfl fun k _ => ?_)
  have e : idx_main_call1_v7 (ix1 b) k = ix2 b k :=
    funext fun a => by match a with | ⟨0, _⟩ => rfl | ⟨1, _⟩ => rfl
  rw [e, val_main_call1_v6_apply, shifted1]
  rfl

/-- Minus the second call's result is the row's negated log-softmax. -/
theorem negLogSoftmax1 (x : S131072x256.Idx → EReal) (b : Fin 131072) (c : Fin 256) :
    val_main_v3 (F := Ideal) x (ix2 b c) = negLogSoftmax (rowOf x b) c := by
  have e : idx_main_call1_v8 (idx_main_call1_v10 (ix2 b c)) = ix1 b :=
    funext fun a => by match a with | ⟨0, _⟩ => rfl
  rw [val_main_v3_apply, val_main_v2_apply, shifted1, val_main_call1_v10_apply, val_main_call1_v9_apply,
    val_main_call1_v8_apply, e, expsum1]
  rfl

/-! ## The rows' minima, their mean, the half -/

/-- The summed cross-entropies, entry by entry. -/
theorem crossSum_apply (x0 x1 : S131072x256.Idx → EReal) (b : Fin 131072) (c : Fin 256) :
    val_main_v4 (F := Ideal) x0 x1 (ix2 b c) = negLogSoftmax (rowOf x0 b) c + negLogSoftmax (rowOf x1 b) c := by
  rw [val_main_v4_apply, negLogSoftmax0, negLogSoftmax1]
  rfl

/-- A row's minimum is the reference's row loss. -/
theorem rowMin_apply (x0 x1 : S131072x256.Idx → EReal) (b : Fin 131072) :
    val_main_v5 (F := Ideal) x0 x1 (ix1 b) = rowLossRef (rowOf x0 b) (rowOf x1 b) := by
  unfold val_main_v5
  refine (reduce_min_row (val_main_v4 (F := Ideal) x0 x1) (val_main_cst (F := Ideal)) (fun _ => Consts.ofBits_pos_inf) b).trans ?_
  unfold rowLossRef
  exact congrArg rowMin (funext fun c => crossSum_apply x0 x1 b c)

/-- THE REFERENCE'S RESULT on finite inputs is the common function of the two arrays. -/
theorem result_apply (x0 x1 : S131072x256.Idx → EReal) (h0 : ∀ i, ∃ r : ℝ, x0 i = (r : EReal))
    (h1 : ∀ i, ∃ r : ℝ, x1 i = (r : EReal)) (i : S_.Idx) :
    val_main_v8 (F := Ideal) x0 x1 i
      = meanLoss (Ideal.ofBits .f32 0x3F000000#32) (Ideal.ofBits .f32 0x48000000#32) x0 x1 := by
  rw [val_main_v8_apply, val_main_v7_apply, val_main_v6_apply, val_main_cst_0_apply, val_main_cst_1_apply,
    val_main_cst_2_apply]
  show Ideal.ofBits .f32 0x3F000000#32 * Ideal.div (Ideal.ofBits .f32 0x00000000#32 + ∑ j : S131072.Idx, val_main_v5 (F := Ideal) x0 x1 j)
      (Ideal.ofBits .f32 0x48000000#32) = _
  unfold meanLoss
  rw [Consts.ofBits_zero, zero_add, Consts.ofBits_rows, half_div_rows, sum_idx1, sum_rows_eq_sum_blocks]
  refine congrArg (fun T => Ideal.div (Ideal.ofBits .f32 0x3F000000#32 * T) ((131072 : ℝ) : EReal))
    (Finset.sum_congr rfl fun t _ => Finset.sum_congr rfl fun r _ => ?_)
  rw [rowMin_apply]
  exact rowLossRef_eq_rowLoss _ _ (fun k => h0 _) (fun k => h1 _)

end Cert.ReferenceIdeal.RefValue

end
-- ==== Proof.KernelPieces.lean ====
/-
  What each control case of the kernel body leaves behind, as values of what it loaded (at any float instance).

  The body has three cases over the 32 grid points. At the first point it stores the zero into the running
  scalar, reads it back, and stores "zero plus this block's total". At a middle point it stores "running scalar plus
  this block's total". At the last point it does the same and then stores, into the output block, the result payload
  of the scalar it has just written. The generated frame run finds these as lists of stored pieces; each list is one
  covering store (after a covered read-back), so reading it back gives the store's payload.
-/
import proofs.«121945_j71004399337949_1_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem Cert.KernelIdeal Cert.KernelIdeal.Gen
open Idealize.ShloMosaic.Pipeline (Dat)

variable {F : FTy → Type} [FloatOps F]

theorem hz : (![0, 0] : Fin 2 → Nat) = fun _ => 0 := funext fun a => by fin_cases a <;> rfl

/-- FIRST POINT: the running scalar ends at the update of the zero it has just been reset to. -/
theorem scratch_first (c : Dev nD) (i : grid0.Coords) (a1 : Memref sig .tc .vmem S4096x256 .f32) (h1 : a1.IsWhole)
    (a2 : Memref sig .tc .vmem S4096x256 .f32) (h2 : a2.IsWhole) (a3 : Memref sig .tc .vmem S1x1 .f32) (h3 : a3.IsWhole)
    (a4 : Memref sig .tc .vmem S1x1 .f32) (h4 : a4.IsWhole) (hc0 : cond0_0 i) (hc1 : ¬cond0_1 i)
    (x0 x1 : Vec F S4096x256 .f32) :
    sout0_A_0 c i a1 h1 a2 h2 a3 h3 a4 h4 hc0 hc1 x0 x1 = k0_pay3 x0 x1 (k0_pay2 (F := F)) := by
  unfold sout0_A_0
  rw [View.read_writes_eq_canon _ _ _ (scover0_A_0 c i a1 h1 a2 h2 a3 h3 a4 h4 hc0 hc1 x0 x1)]
  unfold kernelRun0_A
  dsimp only
  sl_unfold_words
  rw [View.canon_cons_unit_zero (S := S1x1) hz, View.readCov_unit_zero (S := S1x1) _ hz]
  simp only [View.readAt_eq_ld, h1.read_unread, h2.read_unread, h4.read_unread,
    View.ld_unit_zero (S := S4096x256) hz, View.ld_unit_zero (S := S1x1) hz]

/-- MIDDLE POINT: the running scalar ends at the update of what the point before left. -/
theorem scratch_middle (c : Dev nD) (i : grid0.Coords) (a1 : Memref sig .tc .vmem S4096x256 .f32) (h1 : a1.IsWhole)
    (a2 : Memref sig .tc .vmem S4096x256 .f32) (h2 : a2.IsWhole) (a3 : Memref sig .tc .vmem S1x1 .f32) (h3 : a3.IsWhole)
    (a4 : Memref sig .tc .vmem S1x1 .f32) (h4 : a4.IsWhole) (hc0 : ¬cond0_0 i) (hc1 : ¬cond0_1 i)
    (x0 x1 : Vec F S4096x256 .f32) (xs : Vec F S1x1 .f32) :
    sout0_B_0 c i a1 h1 a2 h2 a3 h3 a4 h4 hc0 hc1 x0 x1 xs = k0_pay3 x0 x1 xs := by
  unfold sout0_B_0
  rw [View.read_writes_eq_canon _ _ _ (scover0_B_0 c i a1 h1 a2 h2 a3 h3 a4 h4 hc0 hc1 x0 x1 xs)]
  unfold kernelRun0_B
  dsimp only
  rw [View.canon_unit_zero (S := S1x1) hz]
  simp only [View.readAt_eq_ld, h1.read_unread, h2.read_unread, h4.read_unread,
    View.ld_unit_zero (S := S4096x256) hz, View.ld_unit_zero (S := S1x1) hz]

/-- LAST POINT: the running scalar ends at the update of what the point before left, -/
theorem scratch_last (c : Dev nD) (i : grid0.Coords) (a1 : Memref sig .tc .vmem S4096x256 .f32) (h1 : a1.IsWhole)
    (a2 : Memref sig .tc .vmem S4096x256 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 x1 : Vec F S4096x256 .f32) (xs : Vec F S1x1 .f32) :
    sout0_C_0 c i a1 h1 a2 h2 a3 h3 a4 h4 hc0 hc1 x0 x1 xs = k0_pay3 x0 x1 xs := by
  unfold sout0_C_0
  rw [View.read_writes_eq_canon _ _ _ (scover0_C_0 c i a1 h1 a2 h2 a3 h3 a4 h4 hc0 hc1 x0 x1 xs)]
  unfold kernelRun0_C
  dsimp only
  sl_unfold_words
  rw [View.canon_unit_zero (S := S1x1) hz]
  simp only [View.readAt_eq_ld, h1.read_unread, h2.read_unread, h4.read_unread,
    View.ld_unit_zero (S := S4096x256) hz, View.ld_unit_zero (S := S1x1) hz]

/-- and the output block at the result payload of that updated scalar. -/
theorem out_last (c : Dev nD) (i : grid0.Coords) (a1 : Memref sig .tc .vmem S4096x256 .f32) (h1 : a1.IsWhole)
    (a2 : Memref sig .tc .vmem S4096x256 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 x1 : Vec F S4096x256 .f32) (xs : Vec F S1x1 .f32) :
    out0_C_2 c i a1 h1 a2 h2 a3 h3 a4 h4 hc0 hc1 x0 x1 xs = k0_pay1 (k0_pay3 x0 x1 xs) := by
  unfold out0_C_2
  rw [View.read_writes_eq_canon _ _ _ (cover0_C_2 c i a1 h1 a2 h2 a3 h3 a4 h4 hc0 hc1 x0 x1 xs)]
  unfold kernelRun0_C
  dsimp only
  sl_unfold_words
  rw [View.canon_unit_zero (S := S1x1) hz, View.readCov_unit_zero (S := S1x1) _ hz]
  simp only [View.readAt_eq_ld, h1.read_unread, h2.read_unread, h4.read_unread,
    View.ld_unit_zero (S := S4096x256) hz, View.ld_unit_zero (S := S1x1) hz]

end Cert.KernelIdeal.Pieces

end
-- ==== Proof.LibColumnCast.lean ====
/-
  A vector as a column: an [a] array cast to [a, 1] reads, at (i, 0), the operand at i.
-/
import Idealize.ShloMosaic.Lib.Pipeline.Value
import Idealize.ShloMosaic.Lib.ValueIdx

noncomputable section

namespace Cert.Lib

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Lib

end
-- ==== Proof.LibColumnBroadcast.lean ====
/-
  A column broadcast over the columns: a [a, 1] array broadcast to [a, b] reads, at (p, c), the operand's row p.
-/
import Idealize.ShloMosaic.Lib.Pipeline.Value
import Idealize.ShloMosaic.Lib.ValueIdx

noncomputable section

namespace Cert.Lib

open Idealize.ShloMosaic Idealize.ShloMosaic.ValueIdx

variable {α : Type}

/-- A `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.KernelRow.lean ====
/-
  The kernel body's arithmetic, read at an index at the extended reals.

  One grid point holds a [4096, 256] block of each input. Per row the body takes the row maximum, the sum of the
  exponentials of the row shifted by that maximum, the log of that sum plus the maximum (the row's log-sum-exp),
  for both inputs; the maximum of the two rows' sum; and the difference "two log-sum-exps less that maximum"
  (RowLaw.lean's `rowLoss`). It then sums the 4096 differences and adds the sum to the running scalar it carries
  between points. At the last point it stores `(half · running) / rows`.
-/
import proofs.«121945_j71004399337949_1_alg».proof.Proof.Gen.KernelIdeal.Skeleton
import proofs.«121945_j71004399337949_1_alg».proof.Proof.Spec
import proofs.«121945_j71004399337949_1_alg».proof.Proof.Consts
import proofs.«121945_j71004399337949_1_alg».proof.Proof.LibColumnCast
import proofs.«121945_j71004399337949_1_alg».proof.Proof.LibColumnBroadcast
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Payload

open Idealize.ShloMosaic Idealize.ShloMosaic.ValueIdx Cert.KernelIdeal Cert.KernelIdeal.Gen Cert.MinEntropy

/-! ## The body's intermediate values, by name -/

section Names

variable {F : FTy → Type} [FloatOps F]

/-- The column of row maxima of a block. -/
def colMax (x : FVec F S4096x256 .f32) : FVec F S4096x1 .f32 :=
  shapeCast S4096x1 (multiReduction .maximumf [1] S4096 x 0xFF800000#32 reduces_S4096x256_S4096 (.inl rfl) rfl)
    shapeCasts_S4096_S4096x1

/-- The column of row log-sum-exps of a block. -/
def lseCol (x : FVec F S4096x256 .f32) : FVec F S4096x1 .f32 :=
  addf (colMax x) (log (shapeCast S4096x1
    (multiReduction .add [1] S4096 (exp (subf x (broadcastTo S4096x256 (colMax x) broadcasts_S4096x1_S4096x256)))
      0x00000000#32 reduces_S4096x256_S4096 (.inl rfl) rfl) shapeCasts_S4096_S4096x1))

/-- The column of row losses of a pair of blocks. -/
def lossCol (x0 x1 : FVec F S4096x256 .f32) : FVec F S4096x1 .f32 :=
  subf (addf (lseCol x0) (lseCol x1)) (colMax (addf x0 x1))

/-- The sum of a column's 4096 entries, as the body takes it: through a [1, 4096, 1] cast, a reduction to [1], a cast
    to [1, 1, 1] and the extraction of the one element. -/
def colTotal (v : FVec F S4096x1 .f32) : F .f32 :=
  extractAt ![0, 0, 0] (shapeCast S1x1x1 (multiReduction .add [1, 2] S1
    (shapeCast S1x4096x1 v shapeCasts_S4096x1_S1x4096x1) 0x00000000#32 reduces_S1x4096x1_S1 (.inl rfl) rfl)
    shapeCasts_S1_S1x1x1) inpos_S1x1x1_p0_0_0

/-- The running scalar's update is the old value plus the block's total loss. -/
theorem pay3_eq (x0 x1 : FVec F S4096x256 .f32) (xs : FVec F S1x1 .f32) :
    k0_pay3 x0 x1 xs = shapeCast S1x1 (addf xs (broadcast S1x1 (colTotal (lossCol x0 x1)))) shapeCasts_S1x1_S1x1 := rfl

end Names

/-! ## A [1, n, 1] index is its middle coordinate -/

/-- An index of a [1, n, 1] array is its middle coordinate. -/
def idxEquivMid {n : Nat} : (⟨3, ![1, n, 1]⟩ : Shape).Idx ≃ Fin n where
  toFun i := i 1
  invFun r := ix3 (0 : Fin 1) r (0 : Fin 1)
  left_inv i := by
    have h := eq_ix3 i
    have h0 : i 0 = (0 : Fin 1) := Fin.ext (Nat.lt_one_iff.mp (i 0).isLt)
    have h2 : i 2 = (0 : Fin 1) := Fin.ext (Nat.lt_one_iff.mp (i 2).isLt)
    rw [h0, h2] at h
    exact h.symm
  right_inv _ := rfl

theorem sum_idxMid {n : Nat} (f : (⟨3, ![1, n, 1]⟩ : Shape).Idx → EReal) :
    ∑ i, f i = ∑ r : Fin n, f (ix3 (0 : Fin 1) r (0 : Fin 1)) :=
  (Equiv.sum_comp idxEquivMid.symm f).symm

/-! ## The values at an index -/

/-- The row maximum, read at a row. -/
theorem colMax_apply (x : FVec Ideal S4096x256 .f32) (r : Fin 4096) (u : Fin 1) :
    colMax x (ix2 r u) = rowMax (fun k : Fin 256 => x (ix2 r k)) := by
  unfold colMax
  rw [Cert.Lib.shapeCast_a_a1_apply]
  refine (Ideal.multiReduction_maximumf_single x _ _ _ _ (ix1 r)).trans ?_
  unfold rowMax
  rw [show (FloatOps.ofBits (F := Ideal) .f32 0xFF800000#32 : Ideal .f32) = ⊥ from Consts.ofBits_neg_inf]
  refine congrArg (fun g : Fin 256 → EReal => Finset.fold max ⊥ g Finset.univ) (funext fun k => congrArg x (funext fun a => Fin.ext ?_))
  match a with
  | ⟨0, _⟩ => rfl
  | ⟨1, _⟩ => rfl

/-- A row's sum over its 256 columns, read at a row. -/
theorem colSum_apply (y : FVec Ideal S4096x256 .f32) (r : Fin 4096) (u : Fin 1) :
    shapeCast S4096x1 (multiReduction .add [1] S4096 y 0x00000000#32 reduces_S4096x256_S4096 (.inl rfl) rfl)
      shapeCasts_S4096_S4096x1 (ix2 r u) = ∑ k : Fin 256, y (ix2 r k) := by
  rw [Cert.Lib.shapeCast_a_a1_apply]
  refine (Ideal.multiReduction_add_single y _ _ _ _ (ix1 r)).trans ?_
  refine Finset.sum_congr rfl fun k _ => congrArg y (funext fun a => Fin.ext ?_)
  match a with
  | ⟨0, _⟩ => rfl
  | ⟨1, _⟩ => rfl

/-- The row log-sum-exp, read at a row. -/
theorem lseCol_apply (x : FVec Ideal S4096x256 .f32) (r : Fin 4096) (u : Fin 1) :
    lseCol x (ix2 r u) = lse (fun k : Fin 256 => x (ix2 r k)) := by
  unfold lseCol lse
  rw [addf_apply, colMax_apply]
  show _ + Ideal.log (shapeCast S4096x1 (multiReduction (F := Ideal) .add [1] S4096 _ 0x00000000#32 reduces_S4096x256_S4096 (.inl rfl) rfl)
      shapeCasts_S4096_S4096x1 (ix2 r u)) = _
  rw [colSum_apply]
  refine congrArg (fun s => rowMax (fun k : Fin 256 => x (ix2 r k)) + Ideal.log s) (Finset.sum_congr rfl fun k _ => ?_)
  show Ideal.exp (x (ix2 r k) - broadcastTo S4096x256 (colMax x) broadcasts_S4096x1_S4096x256 (ix2 r k)) = _
  rw [Cert.Lib.broadcastTo_a1_ab_apply, colMax_apply]

/-- The row loss, read at a row. -/
theorem lossCol_apply (x0 x1 : FVec Ideal S4096x256 .f32) (r : Fin 4096) (u : Fin 1) :
    lossCol x0 x1 (ix2 r u) = rowLoss (fun k : Fin 256 => x0 (ix2 r k)) (fun k : Fin 256 => x1 (ix2 r k)) := by
  unfold lossCol rowLoss
  rw [subf_apply, addf_apply, lseCol_apply, lseCol_apply, colMax_apply]
  rfl

/-- The total of a column is the sum of its 4096 entries. -/
theorem colTotal_apply (v : FVec Ideal S4096x1 .f32) : colTotal v = ∑ r : Fin 4096, v (ix2 r (0 : Fin 1)) := by
  unfold colTotal extractAt
  rw [shapeCast_apply _ shapeCasts_S1_S1x1x1 _ (ix1 (0 : Fin 1)) (by
    rw [Shape.rowMajor_val_one, Shape.rowMajor_val_three]; rfl)]
  refine (Ideal.multiReduction_add_total _ _ reduces_S1x4096x1_S1 (fun b => by match b with | ⟨0, _⟩ => rfl) _ _ (ix1 (0 : Fin 1))).trans ?_
  rw [sum_idxMid]
  exact Finset.sum_congr rfl fun r _ => shapeCast_ab_1ab_apply v shapeCasts_S4096x1_S1x4096x1 0 r 0

/-- THE UPDATE at the extended reals: the running scalar plus the sum over the block's 4096 rows of the row loss. -/
theorem pay3_apply (x0 x1 : FVec Ideal S4096x256 .f32) (xs : FVec Ideal S1x1 .f32) (i : S1x1.Idx) :
    k0_pay3 (F := Ideal) x0 x1 xs i
      = xs i + ∑ r : Fin 4096, rowLoss (fun k : Fin 256 => x0 (ix2 r k)) (fun k : Fin 256 => x1 (ix2 r k)) := by
  rw [pay3_eq, shapeCast_self, addf_apply, broadcast_apply, colTotal_apply]
  exact congrArg (xs i + ·) (Finset.sum_congr rfl fun r _ => lossCol_apply x0 x1 r 0)

/-- The reset stores the zero. -/
theorem pay2_apply (i : S1x1.Idx) : k0_pay2 (F := Ideal) i = Ideal.ofBits .f32 0x00000000#32 := by
  unfold k0_pay2
  rw [shapeCast_self]
  rfl

/-- THE RESULT at the last point: half the running scalar, divided by the row count. -/
theorem pay1_apply (v : FVec Ideal S1x1 .f32) (i : S1x1.Idx) :
    k0_pay1 (F := Ideal) v i = Ideal.div (Ideal.ofBits .f32 0x3F000000#32 * v i) (Ideal.ofBits .f32 0x48000000#32) := rfl

end Cert.KernelIdeal.Payload

end
-- ==== Proof.KernelValue.lean ====
/-
  The kernel's result, read off its frame run at the extended reals.

  Point `t` of the 32-point grid sees rows `4096 t … 4096 t + 4095` of both arrays. The running scalar after
  point `n` is the sum of the block losses of points `0 … n` (by induction on the point: the first point starts it
  from the zero, every later point adds its block's loss to what the point before left). The last point stores
  `(half · that sum) / rows` into the [1, 1] output block, the only block ever written back, which is the whole
  result array; @main then reshapes that array to a scalar.
-/
import proofs.«121945_j71004399337949_1_alg».proof.Proof.KernelPieces
import proofs.«121945_j71004399337949_1_alg».proof.Proof.KernelRow
import Idealize.ShloMosaic.Lib.Pipeline.Value
import Idealize.ShloMosaic.Lib.StableHlo.Run
import Idealize.ShloMosaic.Lib.Tactic

noncomputable section

namespace Cert.KernelIdeal.KValue

open Idealize.ShloMosaic Idealize.ShloMosaic.TcCoe Idealize.SL.Sem Idealize.ShloMosaic.ValueIdx
open Cert.KernelIdeal Cert.KernelIdeal.Gen Cert.MinEntropy
open Idealize.ShloMosaic.Pipeline (Dat)

variable (m : (ℓ : Loc nD τ sig) → Buf (Elt Ideal) ℓ) (ρ : Dev nD → PrngReg)

/-- The two argument arrays on core `c`. -/
abbrev X0 (c : Dev nD) : (⟨2, ![131072, 256]⟩ : Shape).Idx → EReal := m ((c : Thread nD τ).loc main_arg0)
abbrev X1 (c : Dev nD) : (⟨2, ![131072, 256]⟩ : Shape).Idx → EReal := m ((c : Thread nD τ).loc main_arg1)

/-- The factor and the divisor, as the body spells them. -/
abbrev half : EReal := Ideal.ofBits .f32 0x3F000000#32
abbrev rows : EReal := Ideal.ofBits .f32 0x48000000#32

/-! ## The input blocks -/

/-- Both inputs' block at point `t` is block row `t`, all columns. -/
theorem idx_facts : ∀ t : Fin cfg0.N, (win0_0.index t 0 = t.val ∧ win0_0.index t 1 = 0)
    ∧ (win0_1.index t 0 = t.val ∧ win0_1.index t 1 = 0) :=
  (by decide +kernel : ∀ t : Fin grid0.N, (win0_0.index t 0 = t.val ∧ win0_0.index t 1 = 0)
    ∧ (win0_1.index t 0 = t.val ∧ win0_1.index t 1 = 0))

/-- Entry `(r, k)` of the first input's block at point `t` is entry `(4096 t + r, k)` of the first array. -/
theorem iblk0_apply (c : Dev nD) (t : Fin cfg0.N) (ht : t.val < 32) (r : Fin 4096) (k : Fin 256) :
    (iblk m c 0 t : Vec Ideal S4096x256 .f32) (ix2 r k) = rowOf (X0 m c) (blockRow ⟨t.val, ht⟩ r) k := by
  unfold iblk
  rw [View.read_apply]
  refine (congrFun (V_main_arg0 m c) _).trans (congrArg (m ((c : Thread nD τ).loc main_arg0)) (funext fun a => Fin.ext ?_))
  match a with
  | ⟨0, _⟩ =>
    show win0_0.index t 0 * 4096 + 1 * r.val = 4096 * t.val + r.val
    rw [(idx_facts t).1.1]; omega
  | ⟨1, _⟩ =>
    show win0_0.index t 1 * 256 + 1 * k.val = k.val
    rw [(idx_facts t).1.2]; omega

/-- The same for the second input. -/
theorem iblk1_apply (c : Dev nD) (t : Fin cfg0.N) (ht : t.val < 32) (r : Fin 4096) (k : Fin 256) :
    (iblk m c 1 t : Vec Ideal S4096x256 .f32) (ix2 r k) = rowOf (X1 m c) (blockRow ⟨t.val, ht⟩ r) k := by
  unfold iblk
  rw [View.read_apply]
  refine (congrFun (V_main_arg1 m c) _).trans (congrArg (m ((c : Thread nD τ).loc main_arg1)) (funext fun a => Fin.ext ?_))
  match a with
  | ⟨0, _⟩ =>
    show win0_1.index t 0 * 4096 + 1 * r.val = 4096 * t.val + r.val
    rw [(idx_facts t).2.1]; omega
  | ⟨1, _⟩ =>
    show win0_1.index t 1 * 256 + 1 * k.val = k.val
    rw [(idx_facts t).2.2]; omega

/-- So the loss the body sums at point `t` is block `t`'s loss. -/
theorem block_total (c : Dev nD) (t : Fin cfg0.N) (ht : t.val < 32) :
    ∑ r : Fin 4096, rowLoss (fun k : Fin 256 => (iblk m c 0 t : Vec Ideal S4096x256 .f32) (ix2 r k))
        (fun k : Fin 256 => (iblk m c 1 t : Vec Ideal S4096x256 .f32) (ix2 r k))
      = blockLoss (X0 m c) (X1 m c) ⟨t.val, ht⟩ := by
  unfold blockLoss
  exact Finset.sum_congr rfl fun r _ =>
    congrArg₂ rowLoss (funext fun k => iblk0_apply m c t ht r k) (funext fun k => iblk1_apply m c t ht r k)

/-! ## The running scalar -/

/-- Block `s`'s loss, by number (zero past the grid). -/
def blockAt (c : Dev nD) (s : ℕ) : EReal := if hs : s < 32 then blockLoss (X0 m c) (X1 m c) ⟨s, hs⟩ else 0

theorem blockAt_of_lt (c : Dev nD) (s : ℕ) (hs : s < 32) : blockAt m c s = blockLoss (X0 m c) (X1 m c) ⟨s, hs⟩ :=
  dif_pos hs

/-- The 32 block losses by number are the 32 block losses. -/
theorem sum_blockAt (c : Dev nD) : ∑ s ∈ Finset.range 32, blockAt m c s = ∑ t : Fin 32, blockLoss (X0 m c) (X1 m c) t := by
  rw [← Fin.sum_univ_eq_sum_range]
  exact Finset.sum_congr rfl fun t _ => blockAt_of_lt m c t.val t.isLt

/-- THE ACCUMULATION: after point `n` the running scalar is the sum of the block losses of points `0 … n`. -/
theorem scratch_eq (c : Dev nD) : ∀ (n : ℕ) (h : n < cfg0.N) (i : S1x1.Idx),
    (outsAt0 m c n h).2 i = ∑ s ∈ Finset.range (n + 1), blockAt m c s
  | 0, h, i => by
    rw [outsAt0_A m c ⟨0, h⟩ (Nat.zero_mod _) (by show ¬(0 : ℕ) % 32 = 31; decide), Pieces.scratch_first]
    dsimp only
    rw [Payload.pay3_apply, Payload.pay2_apply, Consts.ofBits_zero, zero_add, Finset.sum_range_one,
      block_total m c ⟨0, h⟩ (by show (0 : ℕ) < 32; decide), blockAt_of_lt m c 0 (by decide)]
  | n + 1, h, i => by
    have hN : cfg0.N = 32 := N_0
    have hlt : n + 1 < 32 := by omega
    have h0 : ¬(⟨n + 1, h⟩ : Fin cfg0.N).val % 32 = 0 := by dsimp only; omega
    have ih := scratch_eq c n (Nat.lt_of_succ_lt h) i
    by_cases h1 : (⟨n + 1, h⟩ : Fin cfg0.N).val % 32 = 31
    · rw [outsAt0_C m c ⟨n + 1, h⟩ h0 h1, Pieces.scratch_last]
      dsimp only
      rw [Payload.pay3_apply]
      show (outsAt0 m c n (Nat.lt_of_succ_lt h)).2 i + _ = _
      rw [ih, Finset.sum_range_succ _ (n + 1), block_total m c ⟨n + 1, h⟩ hlt, blockAt_of_lt m c (n + 1) hlt]
    · rw [outsAt0_B m c ⟨n + 1, h⟩ h0 h1, Pieces.scratch_middle]
      dsimp only
      rw [Payload.pay3_apply]
      show (outsAt0 m c n (Nat.lt_of_succ_lt h)).2 i + _ = _
      rw [ih, Finset.sum_range_succ _ (n + 1), block_total m c ⟨n + 1, h⟩ hlt, blockAt_of_lt m c (n + 1) hlt]

/-! ## The output block and the result array -/

/-- The last grid point. -/
def tLast : Fin cfg0.N := ⟨31, by rw [show cfg0.N = 32 from N_0]; decide⟩

/-- The result array's contents: one entry, the common function of the two argument arrays. -/
abbrev result (c : Dev nD) : Buf (Elt Ideal) ((c : Thread nD τ).loc main_v0) :=
  fun _ => meanLoss half rows (X0 m c) (X1 m c)

/-- At the last point the output block holds the result. -/
theorem out_last_eq (c : Dev nD) : (outsAt0 m c tLast.val tLast.isLt).1 = result m c := by
  have h0 : ¬tLast.val % 32 = 0 := by decide
  have h1 : tLast.val % 32 = 31 := by decide
  have e2 := congrArg Prod.snd (outsAt0_C m c tLast h0 h1)
  rw [Pieces.scratch_last] at e2
  dsimp only at e2
  rw [outsAt0_C m c tLast h0 h1, Pieces.out_last]
  dsimp only
  rw [← e2]
  funext i
  rw [Payload.pay1_apply, scratch_eq m c tLast.val tLast.isLt i]
  show Ideal.div (half * ∑ s ∈ Finset.range 32, blockAt m c s) rows = _
  rw [sum_blockAt]
  rfl

/-- The one write-back, at the last point, writes the result: block (0, 0) of the [1, 1] array is the array. -/
theorem flushed_eq (c : Dev nD) (t : Fin cfg0.N) (hf : (cfg0.win 2).flush t = true) :
    (dats m 0 c).flushed 2 t = ((cfg0.win 2).blk t).view.read (Elt Ideal) (result m c) := by
  have hN : cfg0.N = 32 := N_0
  have h31 : t.val = 31 := by have := (flush0_2 t).mp hf; have := t.isLt; omega
  obtain rfl : t = tLast := Fin.ext h31
  show (cfg0.win 2).cut (grid0.coords tLast) ((dats m 0 c).after 2 tLast) = _
  rw [after0_2, out_last_eq]
  have hz' : (fun a => win0_2.index tLast a * main_v0.ty.shape.size a) = fun _ => 0 :=
    funext fun a => by fin_cases a <;> decide
  exact (Memref.read_access_unit_zero (Elt Ideal) main_v0 hz' (fun a => by rw [congrFun hz' a]; simp) (result m c)).symm

/-- So the result array ends holding the result (the last point's block covers it). -/
theorem final_o (c : Dev nD) : (dats m 0 c).arrAt 2 cfg0.N = result m c :=
  (dats m 0 c).arrAt_eq_of_cover 2 (result m c) (flushed_eq m c) fun i =>
    ⟨tLast, (flush0_2 tLast).mpr rfl, by
      show i ∈ ((View.whole main_v0).slice (win0_2.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index tLast 0 * win0_2.size 0 ≤ (i 0 : Nat) ∧ (i 0 : Nat) < win0_2.index tLast 0 * win0_2.size 0 + win0_2.xsize (grid0.coords tLast) 0
        rw [show win0_2.index tLast 0 * win0_2.size 0 = 0 from by decide +kernel, show win0_2.xsize (grid0.coords tLast) 0 = 1 from by decide +kernel]; omega
      | ⟨1, _⟩ =>
        show win0_2.index tLast 1 * win0_2.size 1 ≤ (i 1 : Nat) ∧ (i 1 : Nat) < win0_2.index tLast 1 * win0_2.size 1 + win0_2.xsize (grid0.coords tLast) 1
        rw [show win0_2.index tLast 1 * win0_2.size 1 = 0 from by decide +kernel, show win0_2.xsize (grid0.coords tLast) 1 = 1 from by decide +kernel]; omega⟩

/-! ## The reshape after the region, and the run -/

/-- @main's result: the result array reshaped to a scalar. -/
theorem tail_eq (c : Dev nD) :
    Pipeline.afterTail₀ cfgs (dats m) 0 (V0 m) [hostOps1] c main_v1 = fun _ => meanLoss half rows (X0 m c) (X1 m c) := by
  unfold Pipeline.afterTail₀
  show StableHlo.after hostOps1 _ (Proc.devRef .tc main_v1) = _
  after_results
  have e : Pipeline.withArrays (cfgs 0).spec c (V0 m c) (fun w => (dats m 0 c).arrAt w (cfgs 0).N) (Proc.devRef .tc main_v0)
      = result m c :=
    (Pipeline.withArrays_arr spec0 launch0.win.arr_inj c _ _ 2).trans (final_o m c)
  rw [e]
  rfl

/-- THE KERNEL'S RUN, READ: every weakly fair execution terminates with @main's result at the common function of the two
    argument arrays, and the arguments unchanged. -/
theorem run : θ_run defs (onTc (τ := τ) (main (F := Ideal))) ⟨m, fun _ => 0, ρ⟩ fun r => ∀ c : Dev nD,
      r.2.mem ((c : Thread nD τ).loc main_v1) = (fun _ => meanLoss half rows (X0 m c) (X1 m c))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v1 (Pipeline.mem_restRefs_of main_v1 rfl (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KValue

end
-- ==== Proof.Finite.lean ====
/-
  The precondition, read back: both arrays hold finite values.

  The printed predicate says, of each array, that every entry's absolute value is below `+∞` (an `and`-reduction
  over all entries of the comparisons), and joins the two by `and`. An extended real whose absolute value
  `max x (-x)` is below `+∞` is neither infinity, so it is a real number.
-/
import proofs.«121945_j71004399337949_1_alg».proof.Pre_finite_inputs
import proofs.«121945_j71004399337949_1_alg».proof.Proof.Gen.Pre_finite_inputs
import proofs.«121945_j71004399337949_1_alg».proof.Proof.Consts
import Idealize.ShloMosaic.Lib.ReduceAll
import Idealize.ShloMosaic.Lib.ValueIdx
import Idealize.ShloMosaic.Lib.Pipeline.Value
import Idealize.ShloMosaic.PureOps.Ideal.Laws

noncomputable section

namespace Cert.MinEntropy.Finite

open Idealize.ShloMosaic Cert.Pre_finite_inputs

/-- The rank-0 shape has one index. -/
instance : Subsingleton S_.Idx := ⟨fun a b => funext fun d => d.elim0⟩

/-- An extended real whose absolute value compares below `+∞` is a real number. -/
theorem real_of_abs_lt_top (x : EReal) (h : Ideal.cmp .olt (max x (-x)) ⊤ = 1#1) : ∃ r : ℝ, x = (r : EReal) := by
  have hlt : max x (-x) < ⊤ := by
    by_contra hn
    simp [Ideal.cmp, hn] at h
  induction x using EReal.rec with
  | bot => simp at hlt
  | top => simp at hlt
  | coe r => exact ⟨r, rfl⟩

/-- One array's half of the predicate gives each entry finite. -/
theorem entry_real (x : FVec Ideal S131072x256 .f32)
    (h : Host.reduce IntOp.andi (cmpf .olt (Host.absf x)
        (broadcastInDim S131072x256 ![] Facts.bcast_S_S131072x256 (constant (F := Ideal) S_ .f32 0x7F800000#32)))
      (constantI S_ 1 1#1) Facts.reducesTo_S131072x256_S_d0_1 Facts.h_S_ ValueIdx.ix0 = 1#1)
    (i : S131072x256.Idx) : ∃ r : ℝ, x i = (r : EReal) := by
  have e := Host.reduce_andi_all _ _ _ _ _ h i
  have eb : broadcastInDim S131072x256 ![] Facts.bcast_S_S131072x256 (constant (F := Ideal) S_ .f32 0x7F800000#32) i
      = Ideal.ofBits .f32 0x7F800000#32 :=
    broadcastInDim_apply _ Facts.bcast_S_S131072x256 _ i ValueIdx.ix0 (fun a => a.elim0)
  refine real_of_abs_lt_top (x i) ?_
  rw [← Consts.ofBits_pos_inf, ← eb]
  exact e

/-- THE PRECONDITION READ BACK: every entry of both arrays is a real number. -/
theorem finite_of_pre (x0 x1 : FVec Ideal S131072x256 .f32) (h : fn (F := Ideal) x0 x1 = fun _ => 1#1) :
    (∀ i, ∃ r : ℝ, x0 i = (r : EReal)) ∧ (∀ i, ∃ r : ℝ, x1 i = (r : EReal)) := by
  have h0 := congrFun h ValueIdx.ix0
  dsimp only [fn] at h0
  obtain ⟨ha, hb⟩ := IntOp.andi_eq_one.1 h0
  exact ⟨entry_real x0 ha, entry_real x1 hb⟩

end Cert.MinEntropy.Finite

end
-- ==== Proof.lean ====
/-
  The minimum-entropy consensus loss of two [131072, 256] arrays x, y: half of the mean, over the rows, of
  `min_c ( -log_softmax(x)[b, c] - log_softmax(y)[b, c] )`.

  The reference computes it as written. The kernel streams the rows in 32 blocks of 4096 and, per row, uses
    min_c ( -log_softmax(x)[b, c] - log_softmax(y)[b, c] ) = lse(x[b, :]) + lse(y[b, :]) - max_c ( x[b, c] + y[b, c] ),
  sums a block's rows, carries the running sum across the grid, and at the last point writes `(0.5 · sum) / 131072`.

  At the extended reals the two are one function of the arrays when the entries are finite:
    * on a finite row pair the two row expressions agree (Proof/RowLaw.lean) — the only step that uses the
      precondition (Proof/Finite.lean reads it back);
    * the sum over the 131072 rows is the sum over the blocks of the sums over a block's rows, and the factor one half
      moves across the division by the row count (Proof/Spec.lean) — no finiteness needed;
    * the reference, read operation by operation, is that function (Proof/RefValue.lean);
    * the kernel's running scalar after point n is the sum of the first n + 1 block losses, by induction on the point,
      and the last point's output block — the whole result array — holds the result, which @main reshapes to a scalar
      (Proof/KernelRow.lean, Proof/KernelPieces.lean, Proof/KernelValue.lean).
  The three frames are the generated frame runs; the idealization rewrote nothing, so `preserves` is trivial.
-/
import proofs.«121945_j71004399337949_1_alg».proof.Defs
import proofs.«121945_j71004399337949_1_alg».proof.Proof.Gen.Kernel
import proofs.«121945_j71004399337949_1_alg».proof.Proof.Gen.Kernel.Skeleton
import proofs.«121945_j71004399337949_1_alg».proof.Proof.Gen.Kernel.Launch
import proofs.«121945_j71004399337949_1_alg».proof.Proof.Gen.Kernel.Points
import proofs.«121945_j71004399337949_1_alg».proof.Proof.Gen.Kernel.Frame
import proofs.«121945_j71004399337949_1_alg».proof.Proof.Gen.KernelIdeal
import proofs.«121945_j71004399337949_1_alg».proof.Proof.Gen.KernelIdeal.Skeleton
import proofs.«121945_j71004399337949_1_alg».proof.Proof.Gen.KernelIdeal.Launch
import proofs.«121945_j71004399337949_1_alg».proof.Proof.Gen.KernelIdeal.Points
import proofs.«121945_j71004399337949_1_alg».proof.Proof.Gen.KernelIdeal.Frame
import proofs.«121945_j71004399337949_1_alg».proof.Proof.Gen.ReferenceIdeal
import proofs.«121945_j71004399337949_1_alg».proof.Proof.Gen.Pre_finite_inputs
import proofs.«121945_j71004399337949_1_alg».proof.Proof.RefRunP
import proofs.«121945_j71004399337949_1_alg».proof.Proof.RefReadP
import proofs.«121945_j71004399337949_1_alg».proof.Proof.RefValue
import proofs.«121945_j71004399337949_1_alg».proof.Proof.KernelValue
import proofs.«121945_j71004399337949_1_alg».proof.Proof.Finite
import Idealize.ShloMosaic.Adequacy
import Idealize.ShloMosaic.Init

noncomputable section

namespace Cert.Proof

open Idealize.ShloMosaic Idealize.SL.Sem

/-- The word-level kernel runs and leaves its arguments as they were: the generated frame. -/
theorem frame_kernel : Cert.frame_Kernel := fun m ρ _ => Cert.Kernel.Gen.frame m ρ

/-- The idealized kernel likewise. -/
theorem frame_kernelIdeal : Cert.frame_KernelIdeal := fun m ρ _ => Cert.KernelIdeal.Gen.frame m ρ

/-- The idealized reference runs and leaves its arguments as they were: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- On finite inputs both programs end with half the mean row loss of the two arrays. -/
theorem algebraic : Cert.algebraic_KernelIdeal_ReferenceIdeal := by
  intro m ρ m' ρ' hpre hagree
  refine ⟨fun c _ => Cert.MinEntropy.meanLoss Cert.KernelIdeal.KValue.half Cert.KernelIdeal.KValue.rows
      (Cert.KernelIdeal.KValue.X0 m c) (Cert.KernelIdeal.KValue.X1 m c), Cert.KernelIdeal.KValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v8_eq, (hagree c).1, (hagree c).2]
  obtain ⟨h0, h1⟩ := Cert.MinEntropy.Finite.finite_of_pre _ _ (hpre c)
  funext i
  exact Cert.ReferenceIdeal.RefValue.result_apply _ _ h0 h1 i

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
